-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S512x512 : Shape := ⟨2, ![512, 512]⟩
abbrev S1024x512 : Shape := ⟨2, ![1024, 512]⟩
abbrev S2048x1024 : Shape := ⟨2, ![2048, 1024]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S1024x512 : S_.BroadcastsInDim S1024x512 (![] : Fin 0 → Fin S1024x512.rank)
  reducesTo_S1024x512_S_d0_1 : S1024x512.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x4096x2048 .f32) (main_arg1 : FVec F S512x512 .f32) (main_arg2 : FVec F S1024x512 .f32) (main_arg3 : FVec F S2048x1024 .f32) (main_arg4 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Kernel.lean ====
abbrev S4x4096x2048 : Shape := ⟨3, ![4, 4096, 2048]⟩
abbrev S512x512 : Shape := ⟨2, ![512, 512]⟩
abbrev S1024x512 : Shape := ⟨2, ![1024, 512]⟩
abbrev S2048x1024 : Shape := ⟨2, ![2048, 1024]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S1024x1024 : Shape := ⟨2, ![1024, 1024]⟩
abbrev S1x512 : Shape := ⟨2, ![1, 512]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S512x512, .f32⟩
  | .hbm, ⟨2, _⟩ => ⟨S1024x512, .f32⟩
  | .hbm, ⟨3, _⟩ => ⟨S2048x1024, .f32⟩
  | .hbm, ⟨4, _⟩ => ⟨S2048, .f32⟩
  | .hbm, ⟨5, _⟩ => ⟨S16384x2048, .f32⟩
  | .hbm, ⟨6, _⟩ => ⟨S1x2048, .f32⟩
  | .hbm, ⟨7, _⟩ => ⟨S16384x2048, .f32⟩
  | .hbm, ⟨8, _⟩ => ⟨S4x4096x2048, .f32⟩
  | .local _ .vmem, ⟨0, _⟩ => ⟨S1024x2048, .f32⟩
  | .local _ .vmem, ⟨1, _⟩ => ⟨S1024x2048, .f32⟩
  | .local _ .vmem, ⟨2, _⟩ => ⟨S512x512, .f32⟩
  | .local _ .vmem, ⟨3, _⟩ => ⟨S1024x512, .f32⟩
  | .local _ .vmem, ⟨4, _⟩ => ⟨S2048x1024, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x4096x2048_S16384x2048 : S4x4096x2048.ShapeCasts S16384x2048
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S1024x2048_o0_0_S1024x512 : S1024x2048.Slices ![0, 0] S1024x512
  slices_S1024x2048_o0_0_S1024x1024 : S1024x2048.Slices ![0, 0] S1024x1024
  inb_S512x512_S512x512_0_0 : ∀ a, (![0, 0] : Fin 2 → Nat) a + S512x512.size a ≤ S512x512.size a
  h_S512x512 : 0 < S512x512.numel
  inb_S1024x512_S1024x512_0_0 : ∀ a, (![0, 0] : Fin 2 → Nat) a + S1024x512.size a ≤ S1024x512.size a
  h_S1024x512 : 0 < S1024x512.numel
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  slices_S1x2048_o0_0_S1x512 : S1x2048.Slices ![0, 0] S1x512
  broadcasts_S1x512_S1024x512 : S1x512.Broadcasts S1024x512
  inb_S1024x2048_S1024x512_0_0 : ∀ a, (![0, 0] : Fin 2 → Nat) a + S1024x512.size a ≤ S1024x2048.size a
  slices_S1x2048_o0_512_S1x512 : S1x2048.Slices ![0, 512] S1x512
  inb_S1024x2048_S1024x512_0_512 : ∀ a, (![0, 512] : Fin 2 → Nat) a + S1024x512.size a ≤ S1024x2048.size a
  slices_S1x2048_o0_1024_S1x1024 : S1x2048.Slices ![0, 1024] S1x1024
  broadcasts_S1x1024_S1024x1024 : S1x1024.Broadcasts S1024x1024
  inb_S1024x2048_S1024x1024_0_1024 : ∀ a, (![0, 1024] : Fin 2 → Nat) a + S1024x1024.size a ≤ S1024x2048.size a
  h_S1024x1024 : 0 < S1024x1024.numel
  shapeCasts_S16384x2048_S4x4096x2048 : S16384x2048.ShapeCasts S4x4096x2048
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .f32 = 32 ∨ (Rect.block (s := S2048x1024) S2048x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S16384x2048.size a
  hwx0_5 : ∀ i : grid0.Coords, EltTy.bits .f32 = 32 ∨ (Rect.block (s := S16384x2048) S1024x2048.size (cc0_transform_5 i) (hinb0_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S512x512 : Shape := ⟨2, ![512, 512]⟩
abbrev S1024x512 : Shape := ⟨2, ![1024, 512]⟩
abbrev S2048x1024 : Shape := ⟨2, ![2048, 1024]⟩
abbrev S2048 : Shape := ⟨1, ![2048]⟩
abbrev S_ : Shape := ⟨0, ![]⟩
abbrev S2048x512 : Shape := ⟨2, ![2048, 512]⟩
abbrev S2048x2048 : Shape := ⟨2, ![2048, 2048]⟩
abbrev S1x1x2048 : Shape := ⟨3, ![1, 1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S512x512, .f32⟩
  | .hbm, ⟨2, _⟩ => ⟨S1024x512, .f32⟩
  | .hbm, ⟨3, _⟩ => ⟨S2048x1024, .f32⟩
  | .hbm, ⟨4, _⟩ => ⟨S2048, .f32⟩
  | .hbm, ⟨5, _⟩ => ⟨S_, .i32⟩
  | .hbm, ⟨6, _⟩ => ⟨S_, .f32⟩
  | .hbm, ⟨7, _⟩ => ⟨S2048x512, .f32⟩
  | .hbm, ⟨8, _⟩ => ⟨S_, .i32⟩
  | .hbm, ⟨9, _⟩ => ⟨S_, .f32⟩
  | .hbm, ⟨10, _⟩ => ⟨S2048x512, .f32⟩
  | .hbm, ⟨11, _⟩ => ⟨S_, .i32⟩
  | .hbm, ⟨12, _⟩ => ⟨S_, .f32⟩
  | .hbm, ⟨13, _⟩ => ⟨S2048x1024, .f32⟩
  | .hbm, ⟨14, _⟩ => ⟨S2048x2048, .f32⟩
  | .hbm, ⟨15, _⟩ => ⟨S4x4096x2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  pads_S512x512_S2048x512_015360_000 : S512x512.Pads (![0, 0] : Fin 2 → Nat) ![1536, 0] ![0, 0] S2048x512
  h_S_ : 0 < S_.numel
  pads_S1024x512_S2048x512_010240_000 : S1024x512.Pads (![0, 0] : Fin 2 → Nat) ![1024, 0] ![0, 0] S2048x512
  pads_S2048x1024_S2048x1024_000_000 : S2048x1024.Pads (![0, 0] : Fin 2 → Nat) ![0, 0] ![0, 0] S2048x1024
  concatenates_S2048x512_S2048x512_S2048x1024_S2048x2048_d1 : Shape.Concatenates [S2048x512, S2048x512, S2048x1024] S2048x2048 1
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_0_01_1_n_n_wf : DotDims.WF S4x4096x2048 S2048x2048 S4x4096x2048 [2] [0] [0, 1] [1] [] []

variable [Facts₀]

def dot_S4x4096x2048_S2048x2048_S4x4096x2048_2_0_01_1_n_n : DotDims S4x4096x2048 S2048x2048 S4x4096x2048 where
  lhsContracting := [2]
  rhsContracting := [0]
  lhsNonContracting := [0, 1]
  rhsNonContracting := [1]
  lhsBatch := []
  rhsBatch := []
  wf := dot_S4x4096x2048_S2048x2048_S4x4096x2048_2_0_01_1_n_n_wf

class Facts : Prop extends Facts₀ where

variable [Facts]
-- ==== Proof.NestedSpec.lean ====
/-
  The nested-width dense layer, one output row at a time.

  The 2048 output columns fall into three groups: columns 0–511 see only the first 512 inputs (weights `w0`,
  512 × 512), columns 512–1023 only the first 1024 inputs (`w1`, 1024 × 512), columns 1024–2047 all 2048 inputs
  (`w2`, 2048 × 1024); a bias is added per column.  `rowOut` is that entry for one row `xr` of inputs.

  The same entry is the row against ONE 2048 × 2048 matrix: each weight block padded with zero rows to 2048 rows and
  the three laid side by side (`padW`).  The products with the zero rows vanish on the extended reals whatever the
  input is (`x · 0 = 0` also at ±∞), so the long sum is the short one (`sum_padW`): no finiteness is needed.
-/
import Idealize.ShloMosaic.Lib.ValueIdx
import Idealize.ShloMosaic.PureOps.Ideal.Laws

noncomputable section

open scoped BigOperators

namespace Cert.NestedSpec

open Idealize.ShloMosaic Idealize.ShloMosaic.ValueIdx

/-- A sum over `Fin m` of a function that vanishes from `n` on is the sum over `Fin n`. -/
theorem sum_castLE {M : Type*} [AddCommMonoid M] {m n : ℕ} (h : n ≤ m) (f : Fin m → M)
    (hz : ∀ k : Fin m, n ≤ k.val → f k = 0) : ∑ k : Fin m, f k = ∑ q : Fin n, f (Fin.castLE h q) := by
  have e : ∑ q : Fin n, f (Fin.castLE h q) = ∑ k ∈ Finset.univ.map (Fin.castLEEmb h), f k := by
    rw [Finset.sum_map]; rfl
  rw [e]
  symm
  refine Finset.sum_subset (Finset.subset_univ _) fun k _ hk => hz k ?_
  by_contra hlt
  exact hk (Finset.mem_map.2 ⟨⟨k.val, Nat.lt_of_not_le hlt⟩, Finset.mem_univ _, Fin.ext rfl⟩)

abbrev W0 : Shape := ⟨2, ![512, 512]⟩
abbrev W1 : Shape := ⟨2, ![1024, 512]⟩
abbrev W2 : Shape := ⟨2, ![2048, 1024]⟩

/-- The three column groups' sums for output column `o`, before the bias. -/
def rowDot (xr : Fin 2048 → EReal) (w0 : W0.Idx → EReal) (w1 : W1.Idx → EReal) (w2 : W2.Idx → EReal) (o : Fin 2048) : EReal :=
  if h0 : o.val < 512 then ∑ q : Fin 512, xr (Fin.castLE (by decide) q) * w0 (ix2 q ⟨o.val, h0⟩)
  else if h1 : o.val < 1024 then ∑ q : Fin 1024, xr (Fin.castLE (by decide) q) * w1 (ix2 q ⟨o.val - 512, by omega⟩)
  else ∑ q : Fin 2048, xr q * w2 (ix2 q ⟨o.val - 1024, by have := o.isLt; omega⟩)

/-- Entry `o` of the layer's output for the input row `xr`. -/
def rowOut (xr : Fin 2048 → EReal) (w0 : W0.Idx → EReal) (w1 : W1.Idx → EReal) (w2 : W2.Idx → EReal) (br : Fin 2048 → EReal)
    (o : Fin 2048) : EReal :=
  rowDot xr w0 w1 w2 o + br o

/-- Entry `(k, o)` of the 2048 × 2048 matrix: the weight blocks padded below with `z` and laid side by side. -/
def padW (z : EReal) (w0 : W0.Idx → EReal) (w1 : W1.Idx → EReal) (w2 : W2.Idx → EReal) (k o : Fin 2048) : EReal :=
  if h0 : o.val < 512 then (if hk : k.val < 512 then w0 (ix2 ⟨k.val, hk⟩ ⟨o.val, h0⟩) else z)
  else if h1 : o.val < 1024 then (if hk : k.val < 1024 then w1 (ix2 ⟨k.val, hk⟩ ⟨o.val - 512, by omega⟩) else z)
  else w2 (ix2 k ⟨o.val - 1024, by have := o.isLt; omega⟩)

/-- A row against the zero-padded matrix is the three short sums. -/
theorem sum_padW (xr : Fin 2048 → EReal) (w0 : W0.Idx → EReal) (w1 : W1.Idx → EReal) (w2 : W2.Idx → EReal) (o : Fin 2048) :
    ∑ k : Fin 2048, xr k * padW 0 w0 w1 w2 k o = rowDot xr w0 w1 w2 o := by
  unfold rowDot
  by_cases h0 : o.val < 512
  · rw [dif_pos h0, sum_castLE (by decide : 512 ≤ 2048) _ (fun k hk => by
      unfold padW; rw [dif_pos h0, dif_neg (Nat.not_lt.2 hk), mul_zero])]
    refine Finset.sum_congr rfl fun q _ => ?_
    unfold padW
    rw [dif_pos h0, dif_pos (show (Fin.castLE (by decide : 512 ≤ 2048) q).val < 512 from q.isLt)]
    rfl
  · rw [dif_neg h0]
    by_cases h1 : o.val < 1024
    · rw [dif_pos h1, sum_castLE (by decide : 1024 ≤ 2048) _ (fun k hk => by
        unfold padW; rw [dif_neg h0, dif_pos h1, dif_neg (Nat.not_lt.2 hk), mul_zero])]
      refine Finset.sum_congr rfl fun q _ => ?_
      unfold padW
      rw [dif_neg h0, dif_pos h1, dif_pos (show (Fin.castLE (by decide : 1024 ≤ 2048) q).val < 1024 from q.isLt)]
      rfl
    · rw [dif_neg h1]
      refine Finset.sum_congr rfl fun q _ => ?_
      unfold padW
      rw [dif_neg h0, dif_neg h1]

/-- `rowOut` depends on its arguments entry by entry. -/
theorem rowOut_congr {xr xr' : Fin 2048 → EReal} {w0 w0' : W0.Idx → EReal} {w1 w1' : W1.Idx → EReal} {w2 w2' : W2.Idx → EReal}
    {br br' : Fin 2048 → EReal} {o o' : Fin 2048} (hx : ∀ q, xr q = xr' q) (h0 : ∀ y, w0 y = w0' y) (h1 : ∀ y, w1 y = w1' y)
    (h2 : ∀ y, w2 y = w2' y) (hb : ∀ k, br k = br' k) (ho : o = o') :
    rowOut xr w0 w1 w2 br o = rowOut xr' w0' w1' w2' br' o' := by
  obtain rfl : xr = xr' := funext hx
  obtain rfl : w0 = w0' := funext h0
  obtain rfl : w1 = w1' := funext h1
  obtain rfl : w2 = w2' := funext h2
  obtain rfl : br = br' := funext hb
  rw [ho]

/-- The entry in the first column group. -/
theorem rowOut_lo (xr : Fin 2048 → EReal) (w0 : W0.Idx → EReal) (w1 : W1.Idx → EReal) (w2 : W2.Idx → EReal) (br : Fin 2048 → EReal)
    (c : Fin 512) (o : Fin 2048) (ho : o.val = c.val) :
    rowOut xr w0 w1 w2 br o = (∑ q : Fin 512, xr (Fin.castLE (by decide) q) * w0 (ix2 q c)) + br o := by
  have h0 : o.val < 512 := by have := c.isLt; omega
  unfold rowOut rowDot
  rw [dif_pos h0]
  have e : (⟨o.val, h0⟩ : Fin 512) = c := Fin.ext ho
  rw [e]

/-- The entry in the second column group. -/
theorem rowOut_mid (xr : Fin 2048 → EReal) (w0 : W0.Idx → EReal) (w1 : W1.Idx → EReal) (w2 : W2.Idx → EReal) (br : Fin 2048 → EReal)
    (c : Fin 512) (o : Fin 2048) (ho : o.val = 512 + c.val) :
    rowOut xr w0 w1 w2 br o = (∑ q : Fin 1024, xr (Fin.castLE (by decide) q) * w1 (ix2 q c)) + br o := by
  have hc := c.isLt
  have h0 : ¬o.val < 512 := by omega
  have h1 : o.val < 1024 := by omega
  unfold rowOut rowDot
  rw [dif_neg h0, dif_pos h1]
  have e : (⟨o.val - 512, by omega⟩ : Fin 512) = c := Fin.ext (by show o.val - 512 = c.val; omega)
  rw [e]

/-- The entry in the third column group. -/
theorem rowOut_hi (xr : Fin 2048 → EReal) (w0 : W0.Idx → EReal) (w1 : W1.Idx → EReal) (w2 : W2.Idx → EReal) (br : Fin 2048 → EReal)
    (c : Fin 1024) (o : Fin 2048) (ho : o.val = 1024 + c.val) :
    rowOut xr w0 w1 w2 br o = (∑ q : Fin 2048, xr q * w2 (ix2 q c)) + br o := by
  have hc := c.isLt
  have h0 : ¬o.val < 512 := by omega
  have h1 : ¬o.val < 1024 := by omega
  unfold rowOut rowDot
  rw [dif_neg h0, dif_neg h1]
  have e : (⟨o.val - 1024, by omega⟩ : Fin 1024) = c := Fin.ext (by show o.val - 1024 = c.val; omega)
  rw [e]

end Cert.NestedSpec

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«154732_j87608742903883_2_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.KernelBlock.lean ====
/-
  What the kernel body leaves in one output block, entry by entry, at the exact extended reals.

  The body holds a block of 1024 input rows (all 2048 columns), the three weight blocks whole and the bias as one row.
  It forms three matrix products into zero accumulators — the first 512 input columns against `w0`, the first 1024
  against `w1`, all 2048 against `w2` — adds to each the matching stretch of the bias row, repeated down the rows,
  and stores the three results side by side: columns 0–511, 512–1023, 1024–2047 of the output block.  The three stored
  rectangles tile the block, so entry (p, o) of the block is the stored value whose rectangle holds it: the row-p input
  against the weight block of o's column group, plus bias[o] — the nested-width layer's `rowOut` for that row.
-/
import proofs.«154732_j87608742903883_2_alg».proof.Proof.Gen.KernelIdeal.Frame
import proofs.«154732_j87608742903883_2_alg».proof.Proof.NestedSpec
import proofs.«154732_j87608742903883_2_alg».proof.Proof.LibPlainDot
import Idealize.ShloMosaic.Lib.Pipeline.Value
import Idealize.ShloMosaic.Lib.ValueLayout

set_option maxRecDepth 16384

noncomputable section

open scoped BigOperators

namespace Cert.KernelIdeal.BlockValue

open Cert.KernelIdeal Cert.KernelIdeal.Gen Cert.NestedSpec
open Idealize.ShloMosaic Idealize.ShloMosaic.TcCoe Idealize.ShloMosaic.ValueIdx Idealize.SL.Sem

theorem hz : (![0, 0] : Fin 2 → Nat) = fun _ => 0 := funext fun a => by fin_cases a <;> rfl

/-- A `w`-column stretch of the bias row from column `off`, repeated down `n` rows, read at (p, c): the bias at
    column `off + c`. -/
theorem biasRows_apply {n w : Nat} (off : Nat) (v10 : Vec Ideal S1x2048 .f32)
    (hs : S1x2048.Slices ![0, off] ⟨2, ![1, w]⟩) (hb : (⟨2, ![1, w]⟩ : Shape).Broadcasts ⟨2, ![n, w]⟩)
    (hc : S1x2048.ShapeCasts S1x2048) (p : Fin n) (c : Fin w) (o : Fin 2048) (ho : o.val = off + c.val) :
    broadcastTo ⟨2, ![n, w]⟩ (extractStridedSlice ⟨2, ![1, w]⟩ ![0, off] (shapeCast S1x2048 v10 hc) hs) hb (ix2 p c)
      = v10 (ix2 0 o) :=
  (broadcastTo_1b_ab_apply _ hb p c).trans
    ((slice2_axis1_apply off _ hs (0 : Fin 1) c o ho).trans (congrFun (shapeCast_self v10 hc) _))

/-- The first `k` columns of the input block, read at (p, q). -/
theorem xcols_apply {k : Nat} (hk : k ≤ 2048) (v0 : Vec Ideal S1024x2048 .f32) (hs : S1024x2048.Slices ![0, 0] ⟨2, ![1024, k]⟩)
    (hc : S1024x2048.ShapeCasts S1024x2048) (p : Fin 1024) (q : Fin k) :
    extractStridedSlice ⟨2, ![1024, k]⟩ ![0, 0] (shapeCast S1024x2048 v0 hc) hs (ix2 p q) = v0 (ix2 p (Fin.castLE hk q)) :=
  (slice2_axis1_apply 0 _ hs p q (Fin.castLE hk q) (Nat.zero_add _).symm).trans (congrFun (shapeCast_self v0 hc) _)

/-- The value stored into columns 0–511, at (p, c). -/
theorem pay3_apply (v0 : Vec Ideal S1024x2048 .f32) (v4 : Vec Ideal S512x512 .f32) (v10 : Vec Ideal S1x2048 .f32)
    (p : Fin 1024) (c : Fin 512) (o : Fin 2048) (ho : o.val = 0 + c.val) :
    k0_pay3 (F := Ideal) v0 v4 v10 (ix2 p c)
      = (∑ q : Fin 512, v0 (ix2 p (Fin.castLE (by decide) q)) * v4 (ix2 q c)) + v10 (ix2 0 o) := by
  unfold k0_pay3 k0_pay1 k0_pay2
  dsimp only
  refine congrArg₂ (· + ·) ?_ (biasRows_apply 0 v10 _ _ _ p c o ho)
  refine (Cert.LibPlainDot.matmul_zero_apply _ rfl _ _ v4 p c).trans ?_
  exact Finset.sum_congr rfl fun q _ => congrArg (· * v4 (ix2 q c)) (xcols_apply (by decide) v0 _ _ p q)

/-- The value stored into columns 512–1023, at (p, c). -/
theorem pay4_apply (v0 : Vec Ideal S1024x2048 .f32) (v6 : Vec Ideal S1024x512 .f32) (v10 : Vec Ideal S1x2048 .f32)
    (p : Fin 1024) (c : Fin 512) (o : Fin 2048) (ho : o.val = 512 + c.val) :
    k0_pay4 (F := Ideal) v0 v6 v10 (ix2 p c)
      = (∑ q : Fin 1024, v0 (ix2 p (Fin.castLE (by decide) q)) * v6 (ix2 q c)) + v10 (ix2 0 o) := by
  unfold k0_pay4 k0_pay1 k0_pay2
  dsimp only
  refine congrArg₂ (· + ·) ?_ (biasRows_apply 512 v10 _ _ _ p c o ho)
  refine (Cert.LibPlainDot.matmul_zero_apply _ rfl _ _ v6 p c).trans ?_
  exact Finset.sum_congr rfl fun q _ => congrArg (· * v6 (ix2 q c)) (xcols_apply (by decide) v0 _ _ p q)

/-- The value stored into columns 1024–2047, at (p, c). -/
theorem pay5_apply (v0 : Vec Ideal S1024x2048 .f32) (v8 : Vec Ideal S2048x1024 .f32) (v10 : Vec Ideal S1x2048 .f32)
    (p : Fin 1024) (c : Fin 1024) (o : Fin 2048) (ho : o.val = 1024 + c.val) :
    k0_pay5 (F := Ideal) v0 v8 v10 (ix2 p c)
      = (∑ q : Fin 2048, v0 (ix2 p q) * v8 (ix2 q c)) + v10 (ix2 0 o) := by
  unfold k0_pay5 k0_pay1 k0_pay2
  dsimp only
  refine congrArg₂ (· + ·) ?_ (biasRows_apply 1024 v10 _ _ _ p c o ho)
  refine (Cert.LibPlainDot.matmul_zero_apply _ rfl _ _ v8 p c).trans ?_
  exact Finset.sum_congr rfl fun q _ => congrArg (· * v8 (ix2 q c)) (congrFun (shapeCast_self v0 _) _)

/-- The output block as one function of the body's loads: entry (p, o) is the nested-width layer's entry o for row p of
    the input block, the bias read off its one row. -/
def blockOut (x0 : Vec Ideal S1024x2048 .f32) (x1 : Vec Ideal S512x512 .f32) (x2 : Vec Ideal S1024x512 .f32)
    (x3 : Vec Ideal S2048x1024 .f32) (x4 : Vec Ideal S1x2048 .f32) : S1024x2048.Idx → EReal :=
  fun y => rowOut (fun q => x0 (ix2 (y 0) q)) x1 x2 x3 (fun o => x4 (ix2 0 o)) (y 1)

theorem blockOut_at (x0 : Vec Ideal S1024x2048 .f32) (x1 : Vec Ideal S512x512 .f32) (x2 : Vec Ideal S1024x512 .f32)
    (x3 : Vec Ideal S2048x1024 .f32) (x4 : Vec Ideal S1x2048 .f32) (y : S1024x2048.Idx) (p : Fin 1024) (o : Fin 2048)
    (h0 : (y 0).val = p.val) (h1 : (y 1).val = o.val) :
    blockOut x0 x1 x2 x3 x4 y = rowOut (fun q => x0 (ix2 p q)) x1 x2 x3 (fun o => x4 (ix2 0 o)) o := by
  obtain rfl : y = ix2 p o := funext fun a => Fin.ext (by
    match a with
    | ⟨0, _⟩ => exact h0
    | ⟨1, _⟩ => exact h1)
  rfl

/-- What the body leaves in the output's staging buffer is `blockOut` of what it loaded: each of the three stored values
    agrees with `blockOut` on its rectangle, and the rectangles cover the block. -/
theorem body_block (c : Dev nD) (i : grid0.Coords) (a1 : Memref sig .tc .vmem S1024x2048 .f32) (h1 : a1.IsWhole)
    (a2 : Memref sig .tc .vmem S512x512 .f32) (h2 : a2.IsWhole) (a3 : Memref sig .tc .vmem S1024x512 .f32) (h3 : a3.IsWhole)
    (a4 : Memref sig .tc .vmem S2048x1024 .f32) (h4 : a4.IsWhole) (a5 : Memref sig .tc .vmem S1x2048 .f32) (h5 : a5.IsWhole)
    (a6 : Memref sig .tc .vmem S1024x2048 .f32) (h6 : a6.IsWhole)
    (x0 : Vec Ideal S1024x2048 .f32) (x1 : Vec Ideal S512x512 .f32) (x2 : Vec Ideal S1024x512 .f32)
    (x3 : Vec Ideal S2048x1024 .f32) (x4 : Vec Ideal S1x2048 .f32) :
    out0_A_5 (F := Ideal) c i a1 h1 a2 h2 a3 h3 a4 h4 a5 h5 a6 h6 x0 x1 x2 x3 x4 = blockOut x0 x1 x2 x3 x4 := by
  unfold out0_A_5
  rw [View.read_writes_eq_canon _ _ _ (cover0_A_5 c i a1 h1 a2 h2 a3 h3 a4 h4 a5 h5 a6 h6 x0 x1 x2 x3 x4)]
  funext y
  refine View.canon_apply_of_pieces (blockOut x0 x1 x2 x3 x4) _ ?_ y (cover0_A_5 c i a1 h1 a2 h2 a3 h3 a4 h4 a5 h5 a6 h6 x0 x1 x2 x3 x4 y)
  unfold kernelRun0_A
  dsimp only
  simp only [View.readAt_eq_ld, h1.read_unread, h2.read_unread, h3.read_unread, h4.read_unread, h5.read_unread,
    View.ld_unit_zero (S := S1024x2048) hz, View.ld_unit_zero (S := S512x512) hz, View.ld_unit_zero (S := S1024x512) hz,
    View.ld_unit_zero (S := S2048x1024) hz, View.ld_unit_zero (S := S1x2048) hz]
  intro pc hpc
  simp only [List.mem_cons, List.not_mem_nil, or_false] at hpc
  rcases hpc with rfl | rfl | rfl
  · intro x
    obtain ⟨r, cc, rfl⟩ : ∃ (r : Fin 1024) (cc : Fin 1024), x = ix2 r cc := ⟨x 0, x 1, eq_ix2 x⟩
    have hcc := cc.isLt
    refine (pay5_apply x0 x3 x4 r cc ⟨1024 + cc.val, by omega⟩ rfl).trans ?_
    refine (rowOut_hi (fun q => x0 (ix2 r q)) x1 x2 x3 (fun o => x4 (ix2 0 o)) cc ⟨1024 + cc.val, by omega⟩ rfl).symm.trans ?_
    refine (blockOut_at x0 x1 x2 x3 x4 _ r ⟨1024 + cc.val, by omega⟩ ?_ ?_).symm
    · show 0 + 1 * r.val = r.val; omega
    · show 1024 + 1 * cc.val = 1024 + cc.val; omega
  · intro x
    obtain ⟨r, cc, rfl⟩ : ∃ (r : Fin 1024) (cc : Fin 512), x = ix2 r cc := ⟨x 0, x 1, eq_ix2 x⟩
    have hcc := cc.isLt
    refine (pay4_apply x0 x2 x4 r cc ⟨512 + cc.val, by omega⟩ rfl).trans ?_
    refine (rowOut_mid (fun q => x0 (ix2 r q)) x1 x2 x3 (fun o => x4 (ix2 0 o)) cc ⟨512 + cc.val, by omega⟩ rfl).symm.trans ?_
    refine (blockOut_at x0 x1 x2 x3 x4 _ r ⟨512 + cc.val, by omega⟩ ?_ ?_).symm
    · show 0 + 1 * r.val = r.val; omega
    · show 512 + 1 * cc.val = 512 + cc.val; omega
  · intro x
    obtain ⟨r, cc, rfl⟩ : ∃ (r : Fin 1024) (cc : Fin 512), x = ix2 r cc := ⟨x 0, x 1, eq_ix2 x⟩
    have hcc := cc.isLt
    refine (pay3_apply x0 x1 x4 r cc ⟨0 + cc.val, by omega⟩ rfl).trans ?_
    refine (rowOut_lo (fun q => x0 (ix2 r q)) x1 x2 x3 (fun o => x4 (ix2 0 o)) cc ⟨0 + cc.val, by omega⟩ (Nat.zero_add _)).symm.trans ?_
    refine (blockOut_at x0 x1 x2 x3 x4 _ r ⟨0 + cc.val, by omega⟩ ?_ ?_).symm
    · show 0 + 1 * r.val = r.val; omega
    · show 0 + 1 * cc.val = 0 + cc.val; omega

end Cert.KernelIdeal.BlockValue

end
-- ==== Proof.KernelArray.lean ====
/-
  The kernel's result array, entry by entry, at the exact extended reals.

  The grid has sixteen points; point t holds rows 1024·t … 1024·t + 1023 of the flattened input [16384, 2048] and writes
  back the same rows of the flattened output; the weights and the bias row are the same whole arrays at every point.
  What point t writes back is therefore block t of ONE function of the arrays the region finds: entry (R, o) is the
  nested-width layer's entry o for row R of the flattened input (`rows`).  The sixteen blocks cover the output (row R
  lies in block R / 1024), so the output array ends as that function.

  Around the region the program only re-lays arrays: the input [4, 4096, 2048] flattened to [16384, 2048] (row
  4096·b + s is (b, s)), the bias [2048] as one row [1, 2048], and the output unflattened.  So entry (b, s, o) of the
  program's result is the layer's entry o for the input row x[b, s, ·].
-/
import proofs.«154732_j87608742903883_2_alg».proof.Proof.KernelBlock
import Idealize.ShloMosaic.Lib.StableHlo.Run

set_option maxRecDepth 16384

noncomputable section

open scoped BigOperators

namespace Cert.KernelIdeal.ArrayValue

open Cert.KernelIdeal Cert.KernelIdeal.Gen Cert.KernelIdeal.BlockValue Cert.NestedSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The flattened output as one function of the flattened input, the weights and the bias row. -/
def rows (a0 : S16384x2048.Idx → EReal) (w0 : S512x512.Idx → EReal) (w1 : S1024x512.Idx → EReal) (w2 : S2048x1024.Idx → EReal)
    (b2 : S1x2048.Idx → EReal) : S16384x2048.Idx → EReal :=
  fun i => rowOut (fun q => a0 (ix2 (i 0) q)) w0 w1 w2 (fun o => b2 (ix2 0 o)) (i 1)

/-- The printed index maps over the grid: the input and the output move one block of rows per point, the weights and
    the bias stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `rows` of the arrays as the region finds them. -/
theorem flushed_eq (c : Dev nD) (t : Fin cfg0.N) :
    (dats m 0 c).flushed 5 t = ((cfg0.win 5).blk t).view.read (Elt Ideal)
      (rows (V m c main_v0) (V m c main_arg1) (V m c main_arg2) (V m c main_arg3) (V m c main_v1)) := by
  show (cfg0.win 5).cut (grid0.coords t) ((dats m 0 c).after 5 t) = _
  rw [after0_5]
  unfold outsAt0
  rw [body_block c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)]
  obtain ⟨e00, e01, e10, e11, e20, e21, e30, e31, e40, e41, e50, e51⟩ := idx_facts t
  funext j
  show blockOut (iblk m c 0 t) (iblk m c 1 t) (iblk m c 2 t) (iblk m c 3 t) (iblk m c 4 t) j
    = rows (V m c main_v0) (V m c main_arg1) (V m c main_arg2) (V m c main_arg3) (V m c main_v1) (((cfg0.win 5).blk t).view.emb j)
  unfold blockOut rows
  have hj0 : (j 0).val < 1024 := (j 0).isLt
  have hj1 : (j 1).val < 2048 := (j 1).isLt
  refine rowOut_congr (fun q => ?_) (fun y => ?_) (fun y => ?_) (fun y => ?_) (fun k => ?_) ?_
  · show V m c main_v0 (((cfg0.win 0).blk t).view.emb (ix2 (j 0) q)) = V m c main_v0 (ix2 (((cfg0.win 5).blk t).view.emb j 0) q)
    refine congrArg _ (funext fun a => Fin.ext ?_)
    match a with
    | ⟨0, _⟩ => show win0_0.index t (0 : Fin 2) * 1024 + 1 * (j 0).val = win0_5.index t (0 : Fin 2) * 1024 + 1 * (j 0).val; omega
    | ⟨1, _⟩ => show win0_0.index t (1 : Fin 2) * 2048 + 1 * q.val = q.val; omega
  · show V m c main_arg1 (((cfg0.win 1).blk t).view.emb y) = V m c main_arg1 y
    refine congrArg _ (funext fun a => Fin.ext ?_)
    match a with
    | ⟨0, _⟩ => show win0_1.index t (0 : Fin 2) * 512 + 1 * (y 0).val = (y 0).val; omega
    | ⟨1, _⟩ => show win0_1.index t (1 : Fin 2) * 512 + 1 * (y 1).val = (y 1).val; omega
  · show V m c main_arg2 (((cfg0.win 2).blk t).view.emb y) = V m c main_arg2 y
    refine congrArg _ (funext fun a => Fin.ext ?_)
    match a with
    | ⟨0, _⟩ => show win0_2.index t (0 : Fin 2) * 1024 + 1 * (y 0).val = (y 0).val; omega
    | ⟨1, _⟩ => show win0_2.index t (1 : Fin 2) * 512 + 1 * (y 1).val = (y 1).val; omega
  · show V m c main_arg3 (((cfg0.win 3).blk t).view.emb y) = V m c main_arg3 y
    refine congrArg _ (funext fun a => Fin.ext ?_)
    match a with
    | ⟨0, _⟩ => show win0_3.index t (0 : Fin 2) * 2048 + 1 * (y 0).val = (y 0).val; omega
    | ⟨1, _⟩ => show win0_3.index t (1 : Fin 2) * 1024 + 1 * (y 1).val = (y 1).val; omega
  · show V m c main_v1 (((cfg0.win 4).blk t).view.emb (ix2 0 k)) = V m c main_v1 (ix2 0 k)
    refine congrArg _ (funext fun a => Fin.ext ?_)
    match a with
    | ⟨0, _⟩ => show win0_4.index t (0 : Fin 2) * 1 + 1 * 0 = 0; omega
    | ⟨1, _⟩ => show win0_4.index t (1 : Fin 2) * 2048 + 1 * k.val = k.val; omega
  · exact Fin.ext (by show (j 1).val = win0_5.index t (1 : Fin 2) * 2048 + 1 * (j 1).val; omega)

/-- An index of the flattened output is in point `t`'s block iff each coordinate is in the block's range. -/
theorem mem_blk (t : Fin cfg0.N) (i : S16384x2048.Idx) :
    i ∈ ((cfg0.win 5).blk t).view.set ↔ ∀ a : Fin 2, win0_5.index t a * S1024x2048.size a ≤ (i a).val
      ∧ (i a).val < win0_5.index t a * S1024x2048.size a + S1024x2048.size a := by
  show i ∈ ((View.whole main_v2).slice (win0_5.rect t)).set ↔ _
  rw [View.set_slice_whole, Rect.mem_set_unit]
  exact Iff.rfl

/-- The output array after the run: `rows` of the arrays as the region finds them (row R lies in block R / 1024). -/
theorem final (c : Dev nD) : (dats m 0 c).arrAt 5 cfg0.N
    = rows (V m c main_v0) (V m c main_arg1) (V m c main_arg2) (V m c main_arg3) (V m c main_v1) :=
  (dats m 0 c).arrAt_eq_of_cover 5 _ (fun t _ => flushed_eq m c t) fun i => by
    have hi0 : (i 0).val < 16384 := (i 0).isLt
    have hi1 : (i 1).val < 2048 := (i 1).isLt
    have hN : cfg0.N = 16 := N_0
    have ht : (i 0).val / 1024 < cfg0.N := by rw [hN]; omega
    obtain ⟨-, -, -, -, -, -, -, -, -, -, e50, e51⟩ := idx_facts ⟨(i 0).val / 1024, ht⟩
    have e50' : win0_5.index ⟨(i 0).val / 1024, ht⟩ (0 : Fin 2) = (i 0).val / 1024 := e50
    refine ⟨⟨(i 0).val / 1024, ht⟩, flush0_5 _, ?_⟩
    rw [mem_blk]
    intro a
    match a with
    | ⟨0, _⟩ =>
      show win0_5.index ⟨(i 0).val / 1024, ht⟩ (0 : Fin 2) * 1024 ≤ (i 0).val
        ∧ (i 0).val < win0_5.index ⟨(i 0).val / 1024, ht⟩ (0 : Fin 2) * 1024 + 1024
      rw [e50']; omega
    | ⟨1, _⟩ =>
      show win0_5.index ⟨(i 0).val / 1024, ht⟩ (1 : Fin 2) * 2048 ≤ (i 1).val
        ∧ (i 1).val < win0_5.index ⟨(i 0).val / 1024, ht⟩ (1 : Fin 2) * 2048 + 2048
      rw [e51]; omega

/-- The flattened input as the region finds it. -/
theorem V_v0 (c : Dev nD) : (V m c main_v0 : S16384x2048.Idx → EReal)
    = shapeCast S16384x2048 (m ((c : Thread nD τ).loc main_arg0)) shapeCasts_S4x4096x2048_S16384x2048 := by
  show StableHlo.after hostOps0 (fun b => m (c, b)) (Proc.devRef .tc main_v0) = _
  after_results
  rfl

/-- The bias as the one row the region finds. -/
theorem V_v1 (c : Dev nD) : (V m c main_v1 : S1x2048.Idx → EReal)
    = shapeCast S1x2048 (m ((c : Thread nD τ).loc main_arg4)) shapeCasts_S2048_S1x2048 := by
  show StableHlo.after hostOps0 (fun b => m (c, b)) (Proc.devRef .tc main_v1) = _
  after_results
  rfl

/-- Row 4096·b + s of the flattened input is row (b, s) of the input. -/
theorem flat_apply (x : S4x4096x2048.Idx → EReal) (h : S4x4096x2048.ShapeCasts S16384x2048) (b : Fin 4) (s : Fin 4096)
    (q : Fin 2048) (R : Fin 16384) (hR : R.val = b.val * 4096 + s.val) :
    shapeCast S16384x2048 x h (ix2 R q) = x (ix3 b s q) :=
  shapeCast_apply x h _ _ (by
    rw [Shape.rowMajor_val_three, Shape.rowMajor_val_two]
    show (b.val * 4096 + s.val) * 2048 + q.val = R.val * 2048 + q.val
    rw [hR])

/-- Entry (b, s, o) of the unflattened array is entry (4096·b + s, o) of the flat one. -/
theorem unflat_apply (y : S16384x2048.Idx → EReal) (h : S16384x2048.ShapeCasts S4x4096x2048) (b : Fin 4) (s : Fin 4096)
    (o : Fin 2048) (R : Fin 16384) (hR : R.val = b.val * 4096 + s.val) :
    shapeCast S4x4096x2048 y h (ix3 b s o) = y (ix2 R o) :=
  shapeCast_apply y h _ _ (by
    rw [Shape.rowMajor_val_three, Shape.rowMajor_val_two]
    show R.val * 2048 + o.val = (b.val * 4096 + s.val) * 2048 + o.val
    rw [hR])

/-- The program's result after the lines that follow the region: the output array unflattened. -/
theorem tail_eq (c : Dev nD) : (Pipeline.afterTail₀ cfgs (dats m) 0 (V0 m) [hostOps1] c main_v3 : S4x4096x2048.Idx → EReal)
    = shapeCast S4x4096x2048 (rows (V m c main_v0) (V m c main_arg1) (V m c main_arg2) (V m c main_arg3) (V m c main_v1))
        shapeCasts_S16384x2048_S4x4096x2048 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = rows (V m c main_v0) (V m c main_arg1) (V m c main_arg2) (V m c main_arg3) (V m c main_v1) :=
    (Pipeline.withArrays_arr spec0 launch0.win.arr_inj c _ _ 5).trans (final m c)
  rw [e]
  rfl

/-- The program's result as one function of the launch contents of its arguments: entry (b, s, o) is the nested-width
    layer's entry o for the input row x[b, s, ·]. -/
def result (c : Dev nD) : S4x4096x2048.Idx → EReal :=
  fun i => rowOut (fun q => m ((c : Thread nD τ).loc main_arg0) (ix3 (i 0) (i 1) q)) (m ((c : Thread nD τ).loc main_arg1))
    (m ((c : Thread nD τ).loc main_arg2)) (m ((c : Thread nD τ).loc main_arg3))
    (fun o => m ((c : Thread nD τ).loc main_arg4) (ix1 o)) (i 2)

theorem tail_result (c : Dev nD) :
    (Pipeline.afterTail₀ cfgs (dats m) 0 (V0 m) [hostOps1] c main_v3 : S4x4096x2048.Idx → EReal) = result m c := by
  refine (tail_eq m c).trans ?_
  funext i
  obtain ⟨b, s, o, rfl⟩ : ∃ (b : Fin 4) (s : Fin 4096) (o : Fin 2048), i = ix3 b s o := ⟨i 0, i 1, i 2, eq_ix3 i⟩
  have hb := b.isLt
  have hs := s.isLt
  refine (unflat_apply _ _ b s o ⟨b.val * 4096 + s.val, by omega⟩ rfl).trans ?_
  unfold rows result
  refine rowOut_congr (fun q => ?_) (fun y => ?_) (fun y => ?_) (fun y => ?_) (fun k => ?_) rfl
  · exact (congrFun (V_v0 m c) _).trans (flat_apply _ _ b s q _ rfl)
  · exact congrFun (V_main_arg1 m c) y
  · exact congrFun (V_main_arg2 m c) y
  · exact congrFun (V_main_arg3 m c) y
  · exact (congrFun (V_v1 m c) _).trans (shapeCast_a_1a_apply _ _ 0 k)

/-- The run, read: every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v3 (Pipeline.mem_restRefs_of main_v3 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.ArrayValue

end
-- ==== Proof.RefSide.lean ====
/-
  The reference program's result, index by index, at the exact extended reals.

  The reference pads each weight block below with zeros to 2048 rows, lays the three blocks side by side into one
  2048 × 2048 matrix, contracts the input's last axis against it and adds the bias broadcast over the leading axes.
  Entry (k, o) of the assembled matrix is `padW`: the block chosen by which column group `o` lies in, read at
  (k, o − group start) when row k is inside the block, the padding value — the integer 0 converted, the real 0 —
  below it.  So entry (b, s, o) of the result is the row x[b, s, ·] against the padded matrix plus bias[o]: `rowOut`.
-/
import proofs.«154732_j87608742903883_2_alg».proof.Defs
import proofs.«154732_j87608742903883_2_alg».proof.Proof.Gen.ReferenceIdeal.Read
import proofs.«154732_j87608742903883_2_alg».proof.Proof.NestedSpec
import Idealize.ShloMosaic.Lib.KernelVsHost

noncomputable section

open scoped BigOperators

namespace Cert.ReferenceIdeal.RefValue

open Cert.ReferenceIdeal Cert.ReferenceIdeal.Gen Cert.ReferenceIdeal.Read Cert.NestedSpec
open Idealize.ShloMosaic Idealize.ShloMosaic.ValueIdx

/-- The padding value: the integer zero converted to a float is the real zero. -/
theorem padValue (j : S_.Idx) (v : (⟨S_, .i32⟩ : BufTy).Contents (Elt Ideal)) (hv : v j = 0#32) :
    (sitofp (F := Ideal) .f32 v) j = (0 : EReal) := by
  show FloatOps.sitofp (F := Ideal) .f32 (v j) = 0
  rw [hv]
  show (((0#32 : BitVec 32).toInt : ℝ) : EReal) = 0
  simp

/-- Entry (k, o) of the assembled 2048 × 2048 matrix. -/
theorem assembled_apply (x1 : (⟨S512x512, .f32⟩ : BufTy).Contents (Elt Ideal)) (x2 : (⟨S1024x512, .f32⟩ : BufTy).Contents (Elt Ideal))
    (x3 : (⟨S2048x1024, .f32⟩ : BufTy).Contents (Elt Ideal)) (k o : Fin 2048) :
    val_main_v3 (F := Ideal) x1 x2 x3 (ix2 k o) = padW 0 x1 x2 x3 k o := by
  unfold val_main_v3 padW
  by_cases h0 : o.val < 512
  · rw [dif_pos h0]
    refine (concatenate_apply_piece (t := S2048x2048) (1 : Fin 2) ([⟨S2048x512, val_main_v0 (F := Ideal) x1⟩, ⟨S2048x512, val_main_v1 (F := Ideal) x2⟩, ⟨S2048x1024, val_main_v2 (F := Ideal) x3⟩] : List ((s : Shape) × (s.Idx → Elt Ideal .f32))) concatenates_S2048x512_S2048x512_S2048x1024_S2048x2048_d1 (ix2 k o)
      0 (by show 0 < 3; decide) S2048x512 (val_main_v0 (F := Ideal) x1) rfl rfl 0 rfl (ix2 k ⟨o.val, h0⟩) ?_ ?_).trans ?_
    · intro b hb
      match b with
      | ⟨0, _⟩ => rfl
      | ⟨1, _⟩ => exact absurd rfl hb
    · show 0 + o.val = o.val; omega
    · unfold val_main_v0
      by_cases hk : k.val < 512
      · rw [dif_pos hk]
        exact pad_apply_of_inside _ _ _ x1 _ pads_S512x512_S2048x512_015360_000 h_S_ (ix2 k ⟨o.val, h0⟩)
          (ix2 ⟨k.val, hk⟩ ⟨o.val, h0⟩) (fun a => match a with
            | ⟨0, _⟩ => by show k.val = 0 + k.val * (0 + 1); omega
            | ⟨1, _⟩ => by show o.val = 0 + o.val * (0 + 1); omega)
      · rw [dif_neg hk]
        refine (pad_apply_of_not_inside _ _ _ x1 _ pads_S512x512_S2048x512_015360_000 h_S_ (ix2 k ⟨o.val, h0⟩) (0 : Fin 2) ?_).trans ?_
        · show ¬(0 ≤ k.val ∧ (k.val - 0) % (0 + 1) = 0 ∧ (k.val - 0) / (0 + 1) < 512); omega
        · exact padValue _ _ (val_main_c_apply _)
  · rw [dif_neg h0]
    by_cases h1 : o.val < 1024
    · rw [dif_pos h1]
      refine (concatenate_apply_piece (t := S2048x2048) (1 : Fin 2) ([⟨S2048x512, val_main_v0 (F := Ideal) x1⟩, ⟨S2048x512, val_main_v1 (F := Ideal) x2⟩, ⟨S2048x1024, val_main_v2 (F := Ideal) x3⟩] : List ((s : Shape) × (s.Idx → Elt Ideal .f32))) concatenates_S2048x512_S2048x512_S2048x1024_S2048x2048_d1 (ix2 k o)
        1 (by show 1 < 3; decide) S2048x512 (val_main_v1 (F := Ideal) x2) rfl rfl 512 rfl (ix2 k ⟨o.val - 512, by omega⟩) ?_ ?_).trans ?_
      · intro b hb
        match b with
        | ⟨0, _⟩ => rfl
        | ⟨1, _⟩ => exact absurd rfl hb
      · show 512 + (o.val - 512) = o.val; omega
      · unfold val_main_v1
        by_cases hk : k.val < 1024
        · rw [dif_pos hk]
          exact pad_apply_of_inside _ _ _ x2 _ pads_S1024x512_S2048x512_010240_000 h_S_ (ix2 k ⟨o.val - 512, by omega⟩)
            (ix2 ⟨k.val, hk⟩ ⟨o.val - 512, by omega⟩) (fun a => match a with
              | ⟨0, _⟩ => by show k.val = 0 + k.val * (0 + 1); omega
              | ⟨1, _⟩ => by show o.val - 512 = 0 + (o.val - 512) * (0 + 1); omega)
        · rw [dif_neg hk]
          refine (pad_apply_of_not_inside _ _ _ x2 _ pads_S1024x512_S2048x512_010240_000 h_S_ (ix2 k ⟨o.val - 512, by omega⟩) (0 : Fin 2) ?_).trans ?_
          · show ¬(0 ≤ k.val ∧ (k.val - 0) % (0 + 1) = 0 ∧ (k.val - 0) / (0 + 1) < 1024); omega
          · exact padValue _ _ (val_main_c_0_apply _)
    · rw [dif_neg h1]
      have ho := o.isLt
      refine (concatenate_apply_piece (t := S2048x2048) (1 : Fin 2) ([⟨S2048x512, val_main_v0 (F := Ideal) x1⟩, ⟨S2048x512, val_main_v1 (F := Ideal) x2⟩, ⟨S2048x1024, val_main_v2 (F := Ideal) x3⟩] : List ((s : Shape) × (s.Idx → Elt Ideal .f32))) concatenates_S2048x512_S2048x512_S2048x1024_S2048x2048_d1 (ix2 k o)
        2 (by show 2 < 3; decide) S2048x1024 (val_main_v2 (F := Ideal) x3) rfl rfl 1024 rfl (ix2 k ⟨o.val - 1024, by omega⟩) ?_ ?_).trans ?_
      · intro b hb
        match b with
        | ⟨0, _⟩ => rfl
        | ⟨1, _⟩ => exact absurd rfl hb
      · show 1024 + (o.val - 1024) = o.val; omega
      · unfold val_main_v2
        exact pad_apply_of_inside _ _ _ x3 _ pads_S2048x1024_S2048x1024_000_000 h_S_ (ix2 k ⟨o.val - 1024, by omega⟩)
          (ix2 k ⟨o.val - 1024, by omega⟩) (fun a => match a with
            | ⟨0, _⟩ => by show k.val = 0 + k.val * (0 + 1); omega
            | ⟨1, _⟩ => by show o.val - 1024 = 0 + (o.val - 1024) * (0 + 1); omega)

/-- The reference's result is, entry by entry, the nested-width layer of the arguments. -/
theorem result_apply (x0 : (⟨S4x4096x2048, .f32⟩ : BufTy).Contents (Elt Ideal)) (x1 : (⟨S512x512, .f32⟩ : BufTy).Contents (Elt Ideal))
    (x2 : (⟨S1024x512, .f32⟩ : BufTy).Contents (Elt Ideal)) (x3 : (⟨S2048x1024, .f32⟩ : BufTy).Contents (Elt Ideal))
    (x4 : (⟨S2048, .f32⟩ : BufTy).Contents (Elt Ideal)) (b : Fin 4) (s : Fin 4096) (o : Fin 2048) :
    val_main_v7 (F := Ideal) x0 x1 x2 x3 x4 (ix3 b s o)
      = rowOut (fun q => x0 (ix3 b s q)) x1 x2 x3 (fun o => x4 (ix1 o)) o := by
  have el : ∀ k : Fin 2048, lidx_main_v4 (ix3 b s o) k = ix3 b s k := fun k => funext fun a => Fin.ext (by
    match a with
    | ⟨0, _⟩ => rfl
    | ⟨1, _⟩ => rfl
    | ⟨2, _⟩ => rfl)
  have er : ∀ k : Fin 2048, ridx_main_v4 (ix3 b s o) k = ix2 k o := fun k => funext fun a => Fin.ext (by
    match a with
    | ⟨0, _⟩ => rfl
    | ⟨1, _⟩ => rfl)
  have eb : idx_main_v5 (idx_main_v6 (ix3 b s o)) = ix1 o := funext fun a => Fin.ext (by
    match a with
    | ⟨0, _⟩ => rfl)
  rw [val_main_v7_apply, val_main_v4_apply, val_main_v6_apply, val_main_v5_apply, eb]
  unfold rowOut
  rw [← sum_padW]
  simp only [el, er, assembled_apply, Ideal.addf_def]

end Cert.ReferenceIdeal.RefValue

end
-- ==== Proof.lean ====
/-
  A nested-width dense layer computed two ways, equal over the extended reals.

  The layer: out[b, s, o] = Σ_q x[b, s, q] · W_g(o)[q, o − start(g(o))] + bias[o], where output column o lies in one of
  three groups g — columns 0–511 using only the first 512 inputs (w0), columns 512–1023 the first 1024 (w1), columns
  1024–2047 all 2048 (w2).

  The kernel flattens x to [16384, 2048], walks sixteen blocks of 1024 rows, and per block forms the three short
  products separately and stores them side by side; its result array is the layer entry by entry (Proof/KernelBlock.lean
  for one block, Proof/KernelArray.lean for the array and the re-laying around the region).  The reference pads each
  weight block with zero rows to 2048 rows, joins the three into one 2048 × 2048 matrix and contracts x against it
  (Proof/RefSide.lean); the products with the zero rows vanish on the extended reals for any x (x · 0 = 0 at ±∞ too),
  so its long sums are the kernel's short ones (Proof/NestedSpec.lean, `sum_padW`).  No finiteness of the inputs is used.

  The three frames are the generated ones (the reference's is its generated run with the result dropped); the ideal
  pass rewrote nothing, so the idealization claim is trivial.
-/
import proofs.«154732_j87608742903883_2_alg».proof.Defs
import proofs.«154732_j87608742903883_2_alg».proof.Proof.Gen.Kernel
import proofs.«154732_j87608742903883_2_alg».proof.Proof.Gen.Kernel.Skeleton
import proofs.«154732_j87608742903883_2_alg».proof.Proof.Gen.Kernel.Launch
import proofs.«154732_j87608742903883_2_alg».proof.Proof.Gen.Kernel.Points
import proofs.«154732_j87608742903883_2_alg».proof.Proof.Gen.Kernel.Frame
import proofs.«154732_j87608742903883_2_alg».proof.Proof.Gen.KernelIdeal
import proofs.«154732_j87608742903883_2_alg».proof.Proof.Gen.KernelIdeal.Skeleton
import proofs.«154732_j87608742903883_2_alg».proof.Proof.Gen.KernelIdeal.Launch
import proofs.«154732_j87608742903883_2_alg».proof.Proof.Gen.KernelIdeal.Points
import proofs.«154732_j87608742903883_2_alg».proof.Proof.Gen.KernelIdeal.Frame
import proofs.«154732_j87608742903883_2_alg».proof.Proof.Gen.ReferenceIdeal
import proofs.«154732_j87608742903883_2_alg».proof.Proof.Gen.ReferenceIdeal.Run
import proofs.«154732_j87608742903883_2_alg».proof.Proof.Gen.ReferenceIdeal.Read
import proofs.«154732_j87608742903883_2_alg».proof.Proof.Gen.Pre_finite_inputs
import proofs.«154732_j87608742903883_2_alg».proof.Proof.KernelArray
import proofs.«154732_j87608742903883_2_alg».proof.Proof.RefSide
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the nested-width layer of the (agreeing) arguments in their result arrays. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2.1, (hagree c).2.2.2.1,
    (hagree c).2.2.2.2]
  funext i
  obtain ⟨b, s, o, rfl⟩ : ∃ (b : Fin 4) (s : Fin 4096) (o : Fin 2048), i = ix3 b s o := ⟨i 0, i 1, i 2, eq_ix3 i⟩
  exact Cert.ReferenceIdeal.RefValue.result_apply _ _ _ _ _ b s o

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
